-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 38
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S100000, .f32⟩
  | .hbm, ⟨27, _⟩ => ⟨S600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S100000, .f32⟩
  | .hbm, ⟨27, _⟩ => ⟨S600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.Payload.lean ====
/-
  The body's one stored value, read at an entry of its block on the extended reals.

  For a block of 2000 rows the body holds the rows' features `v0`, the rows' sums of neighbour features `v1`, the rows'
  reciprocal neighbour counts `v3` (one column), the two weight matrices `v9`, `v11` and the two bias vectors `v17`,
  `v22`.  It scales every neighbour sum by its row's reciprocal count, multiplies features and scaled sums by the
  transposed weights (changes of float format are the identity here, and a product into the zero accumulator is the
  plain sum over the contracted coordinate), adds the biases laid along the rows, and clamps below at zero.  At row
  `p`, column `e`:

      max ((((∑ₖ v0[p,k]·v9[e,k]) + v17[e]) + ∑ₖ (v1[p,k]·v3[p,0])·v11[e,k]) + v22[e]) 0.
-/
import proofs.«125219_j80934363726337_1_alg».proof.Proof.Gen.KernelIdeal.Skeleton
import proofs.«125219_j80934363726337_1_alg».proof.Proof.LibDot
import proofs.«125219_j80934363726337_1_alg».proof.Proof.LibCols
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## Where the product's dimension numbers send an output index and a contraction index -/

theorem dot_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dot_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem dot_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem dot_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## The pieces, each at an entry -/

/-- A weight matrix, rounded and transposed, at `(j, e)`: the matrix at `(e, j)`. -/
theorem weightT_apply (w : FVec Ideal S128x128 .f32) (j e : Fin 128) :
    (transpose S128x128 [1, 0] (truncf (F := Ideal) .bf16 w bitsLt_bf16_f32) transposes_S128x128_p1_0_S128x128 (ix2 j e) : EReal)
      = w (ix2 e j) :=
  transpose_apply [1, 0] (truncf .bf16 w bitsLt_bf16_f32) transposes_S128x128_p1_0_S128x128 (ix2 j e) (ix2 e j) (fun b => match b with
    | ⟨0, _⟩ => rfl
    | ⟨1, _⟩ => rfl)

/-- Rows times the transposed weights into the zero accumulator, at `(p, e)`: `∑ₖ a[p,k]·w[e,k]`. -/
theorem project_apply (a : FVec Ideal S2000x128 .bf16) (w : FVec Ideal S128x128 .f32) (p : Fin 2000) (e : Fin 128) :
    (matmul (F := Ideal) dot_S2000x128_S128x128_S2000x128_1_0_0_1_n_n none a
        (transpose S128x128 [1, 0] (truncf (F := Ideal) .bf16 w bitsLt_bf16_f32) transposes_S128x128_p1_0_S128x128)
        (constant S2000x128 .f32 0x00000000#32) (ix2 p e) : EReal)
      = ∑ k : Fin 128, a (ix2 p k) * w (ix2 e k) :=
  (Cert.LibDot.matmul_zero_apply dot_S2000x128_S128x128_S2000x128_1_0_0_1_n_n rfl rfl dot_l0 dot_l1 dot_r0 dot_r1 none a
      (transpose S128x128 [1, 0] (truncf .bf16 w bitsLt_bf16_f32) transposes_S128x128_p1_0_S128x128) p e).trans
    (Finset.sum_congr rfl fun k _ => congrArg (a (ix2 p k) * ·) (weightT_apply w k e))

/-- A bias vector laid as one row and repeated down the block's rows, at `(p, e)`: the vector at `e`. -/
theorem bias_apply (b : FVec Ideal S128 .f32) (p : Fin 2000) (e : Fin 128) :
    broadcastTo S2000x128 (shapeCast S1x128 b shapeCasts_S128_S1x128) broadcasts_S1x128_S2000x128 (ix2 p e) = b (ix1 e) :=
  Cert.LibCols.bias_rows_apply b shapeCasts_S128_S1x128 broadcasts_S1x128_S2000x128 p e

/-- The column of reciprocal counts repeated across the features, at `(p, k)`: row `p`'s reciprocal count. -/
theorem recip_apply (r : FVec Ideal S2000x1 .f32) (p : Fin 2000) (k : Fin 128) :
    broadcastTo S2000x128 (shapeCast S2000x1 r shapeCasts_S2000x1_S2000x1) broadcasts_S2000x1_S2000x128 (ix2 p k)
      = r (ix2 p (0 : Fin 1)) :=
  (Cert.LibCols.col_bcast_apply (shapeCast S2000x1 r shapeCasts_S2000x1_S2000x1) broadcasts_S2000x1_S2000x128 p k).trans
    (congrFun (shapeCast_self r shapeCasts_S2000x1_S2000x1) _)

/-! ## The stored value at an entry -/

theorem pay_apply (v0 v1 : Vec Ideal S2000x128 .f32) (v3 : Vec Ideal S2000x1 .f32) (v9 v11 : Vec Ideal S128x128 .f32)
    (v17 v22 : Vec Ideal S128 .f32) (p : Fin 2000) (e : Fin 128) :
    k0_pay1 v0 v1 v3 v9 v11 v17 v22 (ix2 p e)
      = max ((((∑ k : Fin 128, v0 (ix2 p k) * v9 (ix2 e k)) + v17 (ix1 e))
          + ∑ k : Fin 128, (v1 (ix2 p k) * v3 (ix2 p (0 : Fin 1))) * v11 (ix2 e k)) + v22 (ix1 e))
        (Ideal.ofBits .f32 0x00000000#32) := by
  unfold k0_pay1
  dsimp only
  refine congrArg₂ max (congrArg₂ (· + ·) (congrArg₂ (· + ·) (congrArg₂ (· + ·) ?_ ?_) ?_) ?_) rfl
  · exact project_apply (truncf .bf16 v0 bitsLt_bf16_f32) v9 p e
  · exact bias_apply v17 p e
  · refine (project_apply _ v11 p e).trans (Finset.sum_congr rfl fun k _ => congrArg (· * v11 (ix2 e k)) ?_)
    refine congrArg₂ (· * ·) (congrFun (shapeCast_self v1 shapeCasts_S2000x128_S2000x128) _) (recip_apply v3 p k)
  · exact bias_apply v22 p e

end Cert.KernelIdeal.Body

end
-- ==== Proof.Layer.lean ====
/-
  One graph layer with two linear maps, as a function of its arrays on the extended reals.

  For node features `x` and neighbour features `A` (both `[100000, 128]`), weights `Ws`, `Wn` (`[128, 128]`, used
  transposed) and biases `bs`, `bn`, entry `(p, e)` of the layer is

      max ((((∑ₖ x[p,k]·Ws[e,k]) + bs[e]) + ∑ₖ A[p,k]·Wn[e,k]) + bn[e]) 0,

  the four terms added in that order.  Two ways of forming the neighbour features from a sum `s` of neighbour rows and a
  clipped neighbour count `c = max 1 d` meet here: the quotient `s / c` and the product `s · (1 / c)`.  On the
  extended reals a quotient by `c ≠ 0` IS the product with `c⁻¹`, and `1 / c = 1 · c⁻¹ = c⁻¹`, so the two agree for
  every `s`, finite or not; and `c` is never zero because it is at least one.
-/
import Idealize.ShloMosaic.PureOps.Ideal
import Idealize.ShloMosaic.PureOps.Ideal.Laws
import Idealize.ShloMosaic.Lib.ValueIdx

noncomputable section

open scoped BigOperators

namespace Cert.Layer

open Idealize.ShloMosaic Idealize.ShloMosaic.ValueIdx

/-- Entry `(p, e)` of the layer. -/
def entry (x A : (⟨2, ![100000, 128]⟩ : Shape).Idx → EReal) (Ws : (⟨2, ![128, 128]⟩ : Shape).Idx → EReal)
    (bs : (⟨1, ![128]⟩ : Shape).Idx → EReal) (Wn : (⟨2, ![128, 128]⟩ : Shape).Idx → EReal)
    (bn : (⟨1, ![128]⟩ : Shape).Idx → EReal) (p : Fin 100000) (e : Fin 128) : EReal :=
  max ((((∑ k : Fin 128, x (ix2 p k) * Ws (ix2 e k)) + bs (ix1 e)) + ∑ k : Fin 128, A (ix2 p k) * Wn (ix2 e k)) + bn (ix1 e))
    (Ideal.ofBits .f32 0x00000000#32)

/-- The layer as an array. -/
def layer (x A : (⟨2, ![100000, 128]⟩ : Shape).Idx → EReal) (Ws : (⟨2, ![128, 128]⟩ : Shape).Idx → EReal)
    (bs : (⟨1, ![128]⟩ : Shape).Idx → EReal) (Wn : (⟨2, ![128, 128]⟩ : Shape).Idx → EReal)
    (bn : (⟨1, ![128]⟩ : Shape).Idx → EReal) : (⟨2, ![100000, 128]⟩ : Shape).Idx → EReal :=
  fun i => entry x A Ws bs Wn bn (i 0) (i 1)

theorem layer_apply (x A : (⟨2, ![100000, 128]⟩ : Shape).Idx → EReal) (Ws : (⟨2, ![128, 128]⟩ : Shape).Idx → EReal)
    (bs : (⟨1, ![128]⟩ : Shape).Idx → EReal) (Wn : (⟨2, ![128, 128]⟩ : Shape).Idx → EReal)
    (bn : (⟨1, ![128]⟩ : Shape).Idx → EReal) (p : Fin 100000) (e : Fin 128) :
    layer x A Ws bs Wn bn (ix2 p e) = entry x A Ws bs Wn bn p e := rfl

/-- A product with the reciprocal of a nonzero `c` is the quotient by `c`, whatever the dividend. -/
theorem mul_recip (a c : EReal) (hc : c ≠ 0) : a * Ideal.div 1 c = Ideal.div a c := by
  unfold Ideal.div
  rw [if_neg hc, if_neg hc, one_mul]

/-- The word of `1.0` denotes one. -/
theorem one_word : Ideal.ofBits .f32 0x3F800000#32 = 1 := by
  simp [Ideal.ofBits, Ideal.ieee, -EReal.coe_mul]; norm_num

/-- The same with the numerator spelt as the word of `1.0`. -/
theorem mul_recip_word (a c : EReal) (hc : c ≠ 0) : a * Ideal.div (Ideal.ofBits .f32 0x3F800000#32) c = Ideal.div a c := by
  rw [one_word]
  exact mul_recip a c hc

/-- A count clipped below at one is not zero. -/
theorem clip_ne_zero (d : EReal) : max (Ideal.ofBits .f32 0x3F800000#32) d ≠ 0 := by
  rw [one_word]
  exact ne_of_gt (lt_of_lt_of_le zero_lt_one (le_max_left 1 d))

end Cert.Layer

end
-- ==== Proof.Point.lean ====
/-
  One block's stored value is the layer restricted to the block's rows.

  If the block's feature rows, neighbour-sum rows and reciprocal counts are rows `q p` of whole arrays `X`, `S`, `R`, and
  its weights and biases are the whole `Ws`, `bs`, `Wn`, `bn`, then entry `(p, e)` of the stored value is entry
  `(q p, e)` of the layer of `X` with neighbour features `S[i,k]·R[i,0]`.
-/
import proofs.«125219_j80934363726337_1_alg».proof.Proof.Payload
import proofs.«125219_j80934363726337_1_alg».proof.Proof.Layer

noncomputable section

open scoped BigOperators

namespace Cert.KernelIdeal.Body

open Cert.KernelIdeal Cert.KernelIdeal.Gen Idealize.ShloMosaic Idealize.ShloMosaic.ValueIdx

theorem pay_is_layer (X S : FVec Ideal S100000x128 .f32) (R : FVec Ideal S100000x1 .f32)
    (Ws Wn : FVec Ideal S128x128 .f32) (bs bn : FVec Ideal S128 .f32)
    (x0 x1 : FVec Ideal S2000x128 .f32) (x2 : FVec Ideal S2000x1 .f32) (x3 x5 : FVec Ideal S128x128 .f32)
    (x4 x6 : FVec Ideal S128 .f32) (q : Fin 2000 → Fin 100000)
    (h0 : ∀ (p : Fin 2000) (k : Fin 128), x0 (ix2 p k) = X (ix2 (q p) k))
    (h1 : ∀ (p : Fin 2000) (k : Fin 128), x1 (ix2 p k) = S (ix2 (q p) k))
    (h2 : ∀ p : Fin 2000, x2 (ix2 p (0 : Fin 1)) = R (ix2 (q p) (0 : Fin 1)))
    (h3 : x3 = Ws) (h4 : x4 = bs) (h5 : x5 = Wn) (h6 : x6 = bn) (p : Fin 2000) (e : Fin 128) :
    k0_pay1 (F := Ideal) x0 x1 x2 x3 x5 x4 x6 (ix2 p e)
      = Cert.Layer.layer X (fun i => S i * R (ix2 (i 0) (0 : Fin 1))) Ws bs Wn bn (ix2 (q p) e) := by
  subst h3 h4 h5 h6
  rw [pay_apply, Cert.Layer.layer_apply]
  unfold Cert.Layer.entry
  refine congrArg₂ max (congrArg₂ (· + ·) (congrArg₂ (· + ·) (congrArg₂ (· + ·) ?_ rfl) ?_) rfl) rfl
  · exact Finset.sum_congr rfl fun k _ => congrArg (· * x3 (ix2 e k)) (h0 p k)
  · exact Finset.sum_congr rfl fun k _ => congrArg (· * x5 (ix2 e k)) (congrArg₂ (· * ·) (h1 p k) (h2 p))

end Cert.KernelIdeal.Body

end
-- ==== Proof.Neighbours.lean ====
/-
  What the program computes on the host before the tiled part: for every node the sum of the feature rows of its
  in-neighbours and the reciprocal of its clipped in-degree.

  The edge list is a `[2, 600000]` array of node numbers: row 0 the sources, row 1 the destinations.  A negative source
  number counts from the end (100000 is added to it).  `sums` adds, for every edge, the source's feature row onto the
  destination's row of a zero array; `count` adds one onto the destination's entry of a zero vector; `clipped` is the count
  raised to at least one; `recip` is one divided by it, laid as a column.
-/
import proofs.«125219_j80934363726337_1_alg».proof.Proof.Gen.KernelIdeal

noncomputable section

namespace Cert.KernelIdeal.Neighbours

open Cert.KernelIdeal Cert.KernelIdeal.Gen Idealize.ShloMosaic

variable {F : FTy → Type} [FloatOps F]

/-- The edges' source nodes. -/
def srcRow (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The edges' destination nodes. -/
def dstRow (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The source nodes with negative numbers wrapped, as a column of start indices. -/
def src (e : (⟨S2x600000, .i32⟩ : BufTy).Contents (Elt F)) : (⟨S600000x1, .i32⟩ : BufTy).Contents (Elt F) :=
  broadcastInDim S600000x1 ![0] bcast_S600000_S600000x1_0
    (select (cmpi .slt (srcRow (F := F) e) (broadcastInDim S600000 ![] bcast_S_S600000 (constantI S_ 32 0#32)))
      (addi (srcRow (F := F) e) (broadcastInDim S600000 ![] bcast_S_S600000 (constantI S_ 32 100000#32)))
      (srcRow (F := F) e))

/-- The destination nodes as a column of scatter indices. -/
def dst (e : (⟨S2x600000, .i32⟩ : BufTy).Contents (Elt F)) : (⟨S600000x1, .i32⟩ : BufTy).Contents (Elt F) :=
  broadcastInDim S600000x1 ![0] bcast_S600000_S600000x1_0 (dstRow (F := F) e)

/-- Per node, the sum of its in-neighbours' feature rows. -/
def sums (x : (⟨S100000x128, .f32⟩ : BufTy).Contents (Elt F)) (e : (⟨S2x600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32)) (dst (F := F) e)
    (Host.gather gather_S100000x128_S600000x1_S600000x128_1_0_n_n_0_1_1128 x (src (F := F) e))

/-- Per node, its in-degree. -/
def count (e : (⟨S2x600000, .i32⟩ : BufTy).Contents (Elt F)) : (⟨S100000, .f32⟩ : BufTy).Contents (Elt F) :=
  Host.scatterAdd scatter_S100000_S600000x1_S600000_n_0_0_1
    (broadcastInDim S100000 ![] bcast_S_S100000 (constant S_ .f32 0x00000000#32)) (dst (F := F) e)
    (broadcastInDim S600000 ![] bcast_S_S600000 (constant S_ .f32 0x3F800000#32))

/-- The in-degree raised to at least one. -/
def clipped (e : (⟨S2x600000, .i32⟩ : BufTy).Contents (Elt F)) : (⟨S100000, .f32⟩ : BufTy).Contents (Elt F) :=
  maximumf (broadcastInDim S100000 ![] bcast_S_S100000 (id (constant S_ .f32 0x3F800000#32))) (count (F := F) e)

/-- One over the clipped in-degree, as a column. -/
def recip (e : (⟨S2x600000, .i32⟩ : BufTy).Contents (Elt F)) : (⟨S100000x1, .f32⟩ : BufTy).Contents (Elt F) :=
  shapeCast _ (Host.divf (broadcastInDim S100000 ![] bcast_S_S100000 (constant S_ .f32 0x3F800000#32)) (clipped (F := F) e))
    shapeCasts_S100000_S100000x1

end Cert.KernelIdeal.Neighbours

end
-- ==== Proof.HostSide.lean ====
/-
  What the tiled part finds in the two arrays the host computed for it: the per-node sums of in-neighbour feature
  rows, and the column of reciprocal clipped in-degrees — each the stated function of the program's arguments.
-/
import proofs.«125219_j80934363726337_1_alg».proof.Proof.Gen.KernelIdeal.Frame
import proofs.«125219_j80934363726337_1_alg».proof.Proof.Neighbours
import Idealize.ShloMosaic.Lib.StableHlo.Run

noncomputable section

namespace Cert.KernelIdeal.HostSide

open Cert.KernelIdeal Cert.KernelIdeal.Gen Cert.KernelIdeal.Neighbours Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 1000000 in
/-- The second window's array holds the neighbour sums of the arguments. -/
theorem sums_found (c : Dev nD) :
    V m c main_v13 = sums (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp <;> rfl

set_option maxHeartbeats 1000000 in
/-- The third window's array holds the reciprocal clipped in-degrees of the edge list. -/
theorem recip_found (c : Dev nD) :
    V m c main_v21 = recip (F := F) (m ((c : Thread nD τ).loc main_arg1)) := by
  dsimp only [V]
  simp only [hostOps0, hostOps0_1, hostOps0_2, List.flatten_cons, List.flatten_nil, List.append_nil, List.cons_append,
    List.nil_append]
  after_results_simp <;> rfl

end Cert.KernelIdeal.HostSide

end
-- ==== Proof.KernelArray.lean ====
/-
  The tiled program's result array, from its blocks.

  The grid has 50 points; point `t` works on rows `2000 t … 2000 t + 1999`: it is handed those rows of the node features, of
  the neighbour sums and of the reciprocal-count column, and the whole weight matrices and bias vectors, and writes those
  rows of the result.  By the body's value at an entry, what point `t` writes is the layer's rows `2000 t + p`, the
  neighbour features being `sums[i,k] · recip[i,0]`.  Every row lies in exactly one block (row `r` in block `r / 2000`), so
  the blocks cover the array and the array ends holding the layer.
-/
import proofs.«125219_j80934363726337_1_alg».proof.Proof.Gen.KernelIdeal.Value
import proofs.«125219_j80934363726337_1_alg».proof.Proof.Point
import proofs.«125219_j80934363726337_1_alg».proof.Proof.HostSide
import Idealize.ShloMosaic.Lib.Pipeline.Value
import Idealize.ShloMosaic.Lib.ValueIdx

noncomputable section

namespace Cert.KernelIdeal.Whole

open Cert.KernelIdeal Cert.KernelIdeal.Gen Cert.KernelIdeal.Neighbours Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Row `p` of block `t` is row `2000 t + p` of the array. -/
def row (t : Fin cfg0.N) (p : Fin 2000) : Fin 100000 :=
  ⟨t.val * 2000 + p.val, by
    have hN : cfg0.N = 50 := N_0
    have ht : t.val < cfg0.N := t.isLt
    have hp := p.isLt
    omega⟩

/-- The result as one function of the arguments: the layer with neighbour features `sums · recip`. -/
def result (c : Dev nD) : FVec Ideal S100000x128 .f32 :=
  Cert.Layer.layer (m ((c : Thread nD τ).loc main_arg0))
    (fun i => sums (F := Ideal) (m ((c : Thread nD τ).loc main_arg0)) (m ((c : Thread nD τ).loc main_arg1)) i
      * recip (F := Ideal) (m ((c : Thread nD τ).loc main_arg1)) (ix2 (i 0) (0 : Fin 1)))
    (m ((c : Thread nD τ).loc main_arg2)) (m ((c : Thread nD τ).loc main_arg3))
    (m ((c : Thread nD τ).loc main_arg4)) (m ((c : Thread nD τ).loc main_arg5))

/-- The block index of each window at each point: the three row-tiled inputs and the output move with the point, the
    weights and biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Each input block, read off the arguments -/

theorem features_blk (c : Dev nD) (t : Fin cfg0.N) (p : Fin 2000) (k : Fin 128) :
    (iblk m c 0 t : FVec Ideal S2000x128 .f32) (ix2 p k) = m ((c : Thread nD τ).loc main_arg0) (ix2 (row t p) k) := by
  obtain ⟨e0, e1, -⟩ := idx_facts t
  refine Eq.trans ?_ (congrFun (V_main_arg0 m c) _)
  show V m c main_arg0 (((cfg0.win 0).blk t).view.emb (ix2 p k)) = V m c main_arg0 (ix2 (row t p) k)
  refine congrArg (V m c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem sums_blk (c : Dev nD) (t : Fin cfg0.N) (p : Fin 2000) (k : Fin 128) :
    (iblk m c 1 t : FVec Ideal S2000x128 .f32) (ix2 p k)
      = sums (F := Ideal) (m ((c : Thread nD τ).loc main_arg0)) (m ((c : Thread nD τ).loc main_arg1)) (ix2 (row t p) k) := by
  obtain ⟨-, -, e0, e1, -⟩ := idx_facts t
  refine Eq.trans ?_ (congrFun (HostSide.sums_found m c) _)
  show V m c main_v13 (((cfg0.win 1).blk t).view.emb (ix2 p k)) = V m c main_v13 (ix2 (row t p) k)
  refine congrArg (V m c main_v13) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem recip_blk (c : Dev nD) (t : Fin cfg0.N) (p : Fin 2000) :
    (iblk m c 2 t : FVec Ideal S2000x1 .f32) (ix2 p (0 : Fin 1))
      = recip (F := Ideal) (m ((c : Thread nD τ).loc main_arg1)) (ix2 (row t p) (0 : Fin 1)) := by
  obtain ⟨-, -, -, -, e0, e1, -⟩ := idx_facts t
  refine Eq.trans ?_ (congrFun (HostSide.recip_found m c) _)
  show V m c main_v21 (((cfg0.win 2).blk t).view.emb (ix2 p (0 : Fin 1))) = V m c main_v21 (ix2 (row t p) (0 : Fin 1))
  refine congrArg (V m c main_v21) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

theorem wself_blk (c : Dev nD) (t : Fin cfg0.N) :
    (iblk m c 3 t : FVec Ideal S128x128 .f32) = m ((c : Thread nD τ).loc main_arg2) := by
  obtain ⟨-, -, -, -, -, -, e0, e1, -⟩ := idx_facts t
  funext y
  refine Eq.trans ?_ (congrFun (V_main_arg2 m c) _)
  show V m c main_arg2 (((cfg0.win 3).blk t).view.emb y) = V m c main_arg2 y
  refine congrArg (V m c main_arg2) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem bself_blk (c : Dev nD) (t : Fin cfg0.N) :
    (iblk m c 4 t : FVec Ideal S128 .f32) = m ((c : Thread nD τ).loc main_arg3) := by
  obtain ⟨-, -, -, -, -, -, -, -, e0, -⟩ := idx_facts t
  funext y
  refine Eq.trans ?_ (congrFun (V_main_arg3 m c) _)
  show V m c main_arg3 (((cfg0.win 4).blk t).view.emb y) = V m c main_arg3 y
  refine congrArg (V m c main_arg3) (funext fun a => Fin.ext ?_)
  match a with
  | ⟨0, _⟩ => show win0_4.index t (0 : Fin 1) * 128 + 1 * (y 0).val = (y 0).val; rw [e0]; omega

theorem wneigh_blk (c : Dev nD) (t : Fin cfg0.N) :
    (iblk m c 5 t : FVec Ideal S128x128 .f32) = m ((c : Thread nD τ).loc main_arg4) := by
  obtain ⟨-, -, -, -, -, -, -, -, -, e0, e1, -⟩ := idx_facts t
  funext y
  refine Eq.trans ?_ (congrFun (V_main_arg4 m c) _)
  show V m c main_arg4 (((cfg0.win 5).blk t).view.emb y) = V m c main_arg4 y
  refine congrArg (V m c main_arg4) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem bneigh_blk (c : Dev nD) (t : Fin cfg0.N) :
    (iblk m c 6 t : FVec Ideal S128 .f32) = m ((c : Thread nD τ).loc main_arg5) := by
  obtain ⟨-, -, -, -, -, -, -, -, -, -, -, e0, -⟩ := idx_facts t
  funext y
  refine Eq.trans ?_ (congrFun (V_main_arg5 m c) _)
  show V m c main_arg5 (((cfg0.win 6).blk t).view.emb y) = V m c main_arg5 y
  refine congrArg (V m c main_arg5) (funext fun a => Fin.ext ?_)
  match a with
  | ⟨0, _⟩ => show win0_6.index t (0 : Fin 1) * 128 + 1 * (y 0).val = (y 0).val; rw [e0]; omega

/-! ## What a point writes back, and the whole array -/

theorem hz2 : (![0, 0] : Fin 2 → Nat) = fun _ => 0 := funext fun a => by fin_cases a <;> rfl
theorem hz1 : (![0] : Fin 1 → Nat) = fun _ => 0 := funext fun a => by fin_cases a <;> rfl

/-- Where entry `j` of point `t`'s output block sits in the result array. -/
theorem out_emb (t : Fin cfg0.N) (p : Fin 2000) (e : Fin 128) :
    ((cfg0.win 7).blk t).view.emb (ix2 p e) = (ix2 (row t p) e : S100000x128.Idx) := by
  obtain ⟨-, -, -, -, -, -, -, -, -, -, -, -, e0, e1⟩ := idx_facts t
  funext a
  apply Fin.ext
  match a with
  | ⟨0, _⟩ => show win0_7.index t (0 : Fin 2) * 2000 + 1 * p.val = t.val * 2000 + p.val; rw [e0]; omega
  | ⟨1, _⟩ => show win0_7.index t (1 : Fin 2) * 128 + 1 * e.val = e.val; rw [e1]; omega

/-- Point `t` writes back block `t` of the result. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz2]
  simp only [View.ld_unit_zero (S := S2000x128) hz2, View.ld_unit_zero (S := S2000x1) hz2,
    View.ld_unit_zero (S := S128x128) hz2, View.ld_unit_zero (S := S128) hz1]
  funext j
  obtain ⟨p, e, rfl⟩ : ∃ (p : Fin 2000) (e : Fin 128), j = ix2 p e := ⟨j 0, j 1, eq_ix2 j⟩
  show k0_pay1 (F := Ideal) (iblk m c 0 t) (iblk m c 1 t) (iblk m c 2 t) (iblk m c 3 t) (iblk m c 5 t) (iblk m c 4 t) (iblk m c 6 t) (ix2 p e)
    = result m c (((cfg0.win 7).blk t).view.emb (ix2 p e))
  rw [out_emb t p e]
  exact Body.pay_is_layer (m ((c : Thread nD τ).loc main_arg0))
    (sums (F := Ideal) (m ((c : Thread nD τ).loc main_arg0)) (m ((c : Thread nD τ).loc main_arg1)))
    (recip (F := Ideal) (m ((c : Thread nD τ).loc main_arg1)))
    (m ((c : Thread nD τ).loc main_arg2)) (m ((c : Thread nD τ).loc main_arg4))
    (m ((c : Thread nD τ).loc main_arg3)) (m ((c : Thread nD τ).loc main_arg5))
    (iblk m c 0 t) (iblk m c 1 t) (iblk m c 2 t) (iblk m c 3 t) (iblk m c 5 t) (iblk m c 4 t) (iblk m c 6 t) (row t)
    (features_blk m c t) (sums_blk m c t) (recip_blk m c t) (wself_blk m c t) (bself_blk m c t) (wneigh_blk m c t)
    (bneigh_blk m c t) p e

/-- An index of the array is in point `t`'s block iff each coordinate is in the block's range on its axis. -/
theorem mem_blk (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v22).slice (win0_7.rect t)).set ↔ _
  rw [View.set_slice_whole, Rect.mem_set_unit]
  exact Iff.rfl

/-- Every row is in the block of the point its number divided by 2000 names. -/
theorem cover (i : S100000x128.Idx) : ∃ t : Fin cfg0.N, (cfg0.win 7).flush t = true ∧ i ∈ ((cfg0.win 7).blk t).view.set := by
  have hN : cfg0.N = 50 := N_0
  have hi0 : (i 0).val < 100000 := (i 0).isLt
  have hi1 : (i 1).val < 128 := (i 1).isLt
  let t : Fin cfg0.N := ⟨(i 0).val / 2000, by rw [hN]; omega⟩
  have htv : t.val = (i 0).val / 2000 := rfl
  obtain ⟨-, -, -, -, -, -, -, -, -, -, -, -, e0, e1⟩ := idx_facts t
  refine ⟨t, flush0_7 t, ?_⟩
  rw [mem_blk]
  intro a
  match a with
  | ⟨0, _⟩ =>
    show win0_7.index t (0 : Fin 2) * 2000 ≤ (i 0).val ∧ (i 0).val < win0_7.index t (0 : Fin 2) * 2000 + 2000
    rw [e0, htv]; omega
  | ⟨1, _⟩ =>
    show win0_7.index t (1 : Fin 2) * 128 ≤ (i 1).val ∧ (i 1).val < win0_7.index t (1 : Fin 2) * 128 + 128
    rw [e1]; omega

/-- The result array after the run is the layer. -/
theorem final (c : Dev nD) : (dats m 0 c).arrAt 7 cfg0.N = result m c :=
  (dats m 0 c).arrAt_eq_of_cover 7 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefLayer.lean ====
/-
  The reference's result, one operation after another, is the layer of its arguments with the neighbour features
  formed as the quotient of the summed neighbour rows by the clipped neighbour count.

  Each of its two products of rows by transposed weights is the plain sum over the contracted coordinate; a bias laid as
  one row and repeated down the rows reads the bias at the column; the four terms are added in the layer's order and the
  result clamped below at zero.
-/
import proofs.«125219_j80934363726337_1_alg».proof.Proof.Gen.ReferenceIdeal.Read
import proofs.«125219_j80934363726337_1_alg».proof.Proof.Layer
import Idealize.ShloMosaic.Lib.ValueIdx

noncomputable section

open scoped BigOperators

namespace Cert.ReferenceIdeal.AsLayer

open Cert.ReferenceIdeal Cert.ReferenceIdeal.Read Idealize.ShloMosaic Idealize.ShloMosaic.ValueIdx

/-- The reference's result array is the layer whose neighbour features are its own quotient stage. -/
theorem result_eq_layer (x0 : FVec Ideal S100000x128 .f32) (x1 : (⟨S2x600000, .i32⟩ : BufTy).Contents (Elt Ideal))
    (x2 : FVec Ideal S128x128 .f32) (x3 : FVec Ideal S128 .f32) (x4 : FVec Ideal S128x128 .f32) (x5 : FVec Ideal S128 .f32) :
    val_main_v33 (F := Ideal) x0 x1 x2 x3 x4 x5
      = Cert.Layer.layer x0 (val_main_v21 (F := Ideal) x0 x1) x2 x3 x4 x5 := by
  funext i
  obtain ⟨p, e, rfl⟩ : ∃ (p : Fin 100000) (e : Fin 128), i = ix2 p e := ⟨i 0, i 1, eq_ix2 i⟩
  rw [Cert.Layer.layer_apply]
  unfold Cert.Layer.entry
  have hl23 : ∀ k : Fin 128, lidx_main_v23 (ix2 p e) k = ix2 p k := fun k => funext fun a => Fin.ext (by
    match a with
    | ⟨0, _⟩ => rfl
    | ⟨1, _⟩ => rfl)
  have hr23 : ∀ k : Fin 128, idx_main_v22 (ridx_main_v23 (ix2 p e) k) = ix2 e k := fun k => funext fun a => Fin.ext (by
    match a with
    | ⟨0, _⟩ => rfl
    | ⟨1, _⟩ => rfl)
  have hl28 : ∀ k : Fin 128, lidx_main_v28 (ix2 p e) k = ix2 p k := fun k => funext fun a => Fin.ext (by
    match a with
    | ⟨0, _⟩ => rfl
    | ⟨1, _⟩ => rfl)
  have hr28 : ∀ k : Fin 128, idx_main_v27 (ridx_main_v28 (ix2 p e) k) = ix2 e k := fun k => funext fun a => Fin.ext (by
    match a with
    | ⟨0, _⟩ => rfl
    | ⟨1, _⟩ => rfl)
  have hb25 : idx_main_v24 (idx_main_v25 (ix2 p e)) = ix1 e := funext fun a => Fin.ext (by
    match a with
    | ⟨0, _⟩ => rfl)
  have hb31 : idx_main_v30 (idx_main_v31 (ix2 p e)) = ix1 e := funext fun a => Fin.ext (by
    match a with
    | ⟨0, _⟩ => rfl)
  rw [val_main_v33_apply, val_main_v32_apply, val_main_v29_apply, val_main_v26_apply, val_main_v23_apply, val_main_v28_apply,
    val_main_v25_apply, val_main_v24_apply, val_main_v31_apply, val_main_v30_apply, val_main_call1_v0_apply,
    val_main_call1_cst_apply]
  simp only [val_main_v22_apply, val_main_v27_apply, hl23, hr23, hl28, hr28, hb25, hb31]
  rfl

end Cert.ReferenceIdeal.AsLayer

end
-- ==== Proof.Bridge.lean ====
/-
  The host part of the tiled program and the first operations of the reference are the same operations of the same
  arguments: both read the edge list's two rows, wrap negative source numbers, gather the sources' feature rows and
  add them onto the destinations' rows, count the destinations, and raise the counts to at least one.
-/
import proofs.«125219_j80934363726337_1_alg».proof.Proof.Neighbours
import proofs.«125219_j80934363726337_1_alg».proof.Proof.Gen.ReferenceIdeal.Read

noncomputable section

namespace Cert.Bridge

open Idealize.ShloMosaic

variable {F : FTy → Type} [FloatOps F]

theorem srcRow_eq (e : (⟨Cert.KernelIdeal.S2x600000, .i32⟩ : BufTy).Contents (Elt F)) :
    Cert.KernelIdeal.Neighbours.srcRow (F := F) e = Cert.ReferenceIdeal.Read.val_main_v1 (F := F) e := rfl

theorem dstRow_eq (e : (⟨Cert.KernelIdeal.S2x600000, .i32⟩ : BufTy).Contents (Elt F)) :
    Cert.KernelIdeal.Neighbours.dstRow (F := F) e = Cert.ReferenceIdeal.Read.val_main_v3 (F := F) e := rfl

theorem src_eq (e : (⟨Cert.KernelIdeal.S2x600000, .i32⟩ : BufTy).Contents (Elt F)) :
    Cert.KernelIdeal.Neighbours.src (F := F) e = Cert.ReferenceIdeal.Read.val_main_v9 (F := F) e := rfl

theorem dst_eq (e : (⟨Cert.KernelIdeal.S2x600000, .i32⟩ : BufTy).Contents (Elt F)) :
    Cert.KernelIdeal.Neighbours.dst (F := F) e = Cert.ReferenceIdeal.Read.val_main_v12 (F := F) e := rfl

theorem dst_eq' (e : (⟨Cert.KernelIdeal.S2x600000, .i32⟩ : BufTy).Contents (Elt F)) :
    Cert.KernelIdeal.Neighbours.dst (F := F) e = Cert.ReferenceIdeal.Read.val_main_v16 (F := F) e := rfl

theorem sums_eq (x : (⟨Cert.KernelIdeal.S100000x128, .f32⟩ : BufTy).Contents (Elt F))
    (e : (⟨Cert.KernelIdeal.S2x600000, .i32⟩ : BufTy).Contents (Elt F)) :
    Cert.KernelIdeal.Neighbours.sums (F := F) x e = Cert.ReferenceIdeal.Read.val_main_v13 (F := F) x e := by
  unfold Cert.KernelIdeal.Neighbours.sums Cert.ReferenceIdeal.Read.val_main_v13 Cert.ReferenceIdeal.Read.val_main_v10
  rw [src_eq, dst_eq]
  rfl

theorem count_eq (e : (⟨Cert.KernelIdeal.S2x600000, .i32⟩ : BufTy).Contents (Elt F)) :
    Cert.KernelIdeal.Neighbours.count (F := F) e = Cert.ReferenceIdeal.Read.val_main_v17 (F := F) e := by
  unfold Cert.KernelIdeal.Neighbours.count Cert.ReferenceIdeal.Read.val_main_v17
  rw [dst_eq']
  rfl

theorem clipped_eq (e : (⟨Cert.KernelIdeal.S2x600000, .i32⟩ : BufTy).Contents (Elt F)) :
    Cert.KernelIdeal.Neighbours.clipped (F := F) e = Cert.ReferenceIdeal.Read.val_main_v18 (F := F) e := by
  unfold Cert.KernelIdeal.Neighbours.clipped Cert.ReferenceIdeal.Read.val_main_v18
  rw [count_eq]
  rfl

end Cert.Bridge

end
-- ==== Proof.Means.lean ====
/-
  The two ways of forming the neighbour features agree entry by entry.

  The tiled program multiplies a node's summed neighbour row by the reciprocal `1 / c` of its clipped in-degree `c`; the
  reference divides the same row by the same `c`.  The sums and the clipped in-degrees are the same functions of the
  arguments on both sides, `c = max 1 d` is never zero, and for `c ≠ 0` the product with `1 / c` is the quotient by `c`
  at every extended real.
-/
import proofs.«125219_j80934363726337_1_alg».proof.Proof.Neighbours
import proofs.«125219_j80934363726337_1_alg».proof.Proof.Bridge
import proofs.«125219_j80934363726337_1_alg».proof.Proof.Layer
import proofs.«125219_j80934363726337_1_alg».proof.Proof.Gen.ReferenceIdeal.Read
import Idealize.ShloMosaic.Lib.Pipeline.Value
import Idealize.ShloMosaic.Lib.ValueIdx

noncomputable section

namespace Cert.Means

open Idealize.ShloMosaic Idealize.ShloMosaic.ValueIdx

/-- The reference's clipped in-degree of a node is a maximum with one: not zero. -/
theorem clipped_ne_zero (e : (⟨Cert.ReferenceIdeal.S2x600000, .i32⟩ : BufTy).Contents (Elt Ideal)) (q : Fin 100000) :
    Cert.ReferenceIdeal.Read.val_main_v18 (F := Ideal) e (ix1 q) ≠ 0 := by
  rw [Cert.ReferenceIdeal.Read.val_main_v18_apply, Cert.ReferenceIdeal.Read.val_main_call0_v1_apply,
    Cert.ReferenceIdeal.Read.val_main_call0_v0_apply, Cert.ReferenceIdeal.Read.val_main_cst_3_apply]
  exact Cert.Layer.clip_ne_zero _

/-- The host's quotient of two arrays, at an entry. -/
theorem hostDivf_apply {s : Shape} {φ : FTy} (a b : FVec Ideal s φ) (i : s.Idx) :
    Host.divf a b i = Ideal.div (a i) (b i) := rfl

/-- The reciprocal column at node `q`: one over the node's clipped in-degree. -/
theorem recip_apply (e : (⟨Cert.KernelIdeal.S2x600000, .i32⟩ : BufTy).Contents (Elt Ideal)) (q : Fin 100000) :
    Cert.KernelIdeal.Neighbours.recip (F := Ideal) e (ix2 q (0 : Fin 1))
      = Ideal.div (Ideal.ofBits .f32 0x3F800000#32) (Cert.KernelIdeal.Neighbours.clipped (F := Ideal) e (ix1 q)) := by
  unfold Cert.KernelIdeal.Neighbours.recip
  refine (shapeCast_apply _ _ (ix2 q (0 : Fin 1)) (ix1 q) ?_).trans ?_
  · rw [Shape.rowMajor_val_two, Shape.rowMajor_val_one]
    show q.val = q.val * 1 + 0
    omega
  · rw [hostDivf_apply, broadcastInDim_apply _ Cert.KernelIdeal.Gen.bcast_S_S100000 _ (ix1 q) ix0 (fun a => a.elim0),
      constant_apply]

/-- Summed neighbour row times reciprocal clipped in-degree is the reference's quotient stage, at every entry. -/
theorem features_agree (x : (⟨Cert.KernelIdeal.S100000x128, .f32⟩ : BufTy).Contents (Elt Ideal))
    (e : (⟨Cert.KernelIdeal.S2x600000, .i32⟩ : BufTy).Contents (Elt Ideal)) (i : Cert.KernelIdeal.S100000x128.Idx) :
    Cert.KernelIdeal.Neighbours.sums (F := Ideal) x e i * Cert.KernelIdeal.Neighbours.recip (F := Ideal) e (ix2 (i 0) (0 : Fin 1))
      = Cert.ReferenceIdeal.Read.val_main_v21 (F := Ideal) x e i := by
  obtain ⟨q, k, rfl⟩ : ∃ (q : Fin 100000) (k : Fin 128), i = ix2 q k := ⟨i 0, i 1, eq_ix2 i⟩
  have hidx : Cert.ReferenceIdeal.Read.idx_main_v19 (Cert.ReferenceIdeal.Read.idx_main_v20 (ix2 q k)) = ix1 q :=
    funext fun a => Fin.ext (by
      match a with
      | ⟨0, _⟩ => rfl)
  rw [Cert.ReferenceIdeal.Read.val_main_v21_apply, Cert.ReferenceIdeal.Read.val_main_v20_apply,
    Cert.ReferenceIdeal.Read.val_main_v19_apply, hidx]
  show Cert.KernelIdeal.Neighbours.sums (F := Ideal) x e (ix2 q k) * Cert.KernelIdeal.Neighbours.recip (F := Ideal) e (ix2 q (0 : Fin 1))
    = Ideal.div (Cert.ReferenceIdeal.Read.val_main_v13 (F := Ideal) x e (ix2 q k)) (Cert.ReferenceIdeal.Read.val_main_v18 (F := Ideal) e (ix1 q))
  rw [recip_apply, Cert.Bridge.sums_eq, Cert.Bridge.clipped_eq]
  exact Cert.Layer.mul_recip_word _ _ (clipped_ne_zero e q)

end Cert.Means

end
-- ==== Proof.lean ====
/-
  The tiled program and the reference compute one graph layer with mean aggregation, and agree on the extended reals.

  Both first form, per node, the sum `s` of its in-neighbours' feature rows and its in-degree clipped below at one,
  `c = max 1 d`, by the same host operations of the same arguments.  The reference then takes the neighbour features
  `s / c`, multiplies node features and neighbour features by the transposed weight matrices, adds the two biases, and
  clamps below at zero.  The tiled program hands the reciprocal `1 / c` to its 50 grid points as a column; point `t`
  forms `s · (1 / c)` for rows `2000 t … 2000 t + 1999`, does the same two products (rounding to a shorter float format
  on the way in, which is the identity on the extended reals), adds the biases in the same order and clamps at zero,
  and the 50 row blocks tile the result.

  What joins the two sides is one law of the extended reals: for `c ≠ 0`, `a · (1 / c) = a / c` for every `a`, finite or
  not — a quotient by a nonzero `c` is the product with `c⁻¹`, and `1 / c = c⁻¹`.  Here `c ≥ 1`.  The sums over the
  contracted coordinate are the same sums term by term, so no rearrangement and no finiteness of the inputs is used.

  The three frames are the generated ones (the reference's is its generated run with the result dropped); the
  idealization rewrote nothing, so what it must preserve is trivial.
-/
import proofs.«125219_j80934363726337_1_alg».proof.Defs
import proofs.«125219_j80934363726337_1_alg».proof.Proof.Gen.Kernel
import proofs.«125219_j80934363726337_1_alg».proof.Proof.Gen.Kernel.Frame
import proofs.«125219_j80934363726337_1_alg».proof.Proof.Gen.KernelIdeal
import proofs.«125219_j80934363726337_1_alg».proof.Proof.Gen.KernelIdeal.Frame
import proofs.«125219_j80934363726337_1_alg».proof.Proof.Gen.KernelIdeal.Value
import proofs.«125219_j80934363726337_1_alg».proof.Proof.Gen.ReferenceIdeal
import proofs.«125219_j80934363726337_1_alg».proof.Proof.Gen.ReferenceIdeal.Run
import proofs.«125219_j80934363726337_1_alg».proof.Proof.Gen.ReferenceIdeal.Read
import proofs.«125219_j80934363726337_1_alg».proof.Proof.Gen.Pre_finite_inputs
import proofs.«125219_j80934363726337_1_alg».proof.Proof.KernelArray
import proofs.«125219_j80934363726337_1_alg».proof.Proof.RefLayer
import proofs.«125219_j80934363726337_1_alg».proof.Proof.Means
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the layer of the arguments in their result
    arrays: the tiled program's blocks assemble it with neighbour features `s · (1 / c)`, the reference computes it with
    `s / c`, and the two neighbour features are equal entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v33_eq, Cert.ReferenceIdeal.AsLayer.result_eq_layer]
  unfold Cert.KernelIdeal.Whole.result
  exact congrArg (fun A => Cert.Layer.layer _ A _ _ _ _) (funext fun i => (Cert.Means.features_agree _ _ i).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
